-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S8192x128 : Shape := ⟨2, ![8192, 128]⟩
abbrev S1024x128 : Shape := ⟨2, ![1024, 128]⟩
abbrev S2048x128 : Shape := ⟨2, ![2048, 128]⟩
abbrev S1024x1 : Shape := ⟨2, ![1024, 1]⟩
abbrev S1024x2048 : Shape := ⟨2, ![1024, 2048]⟩
abbrev S1024 : Shape := ⟨1, ![1024]⟩

abbrev nBuf : Space → Nat
  | .hbm => 4
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | .local _ .vmem, ⟨11, _⟩ => ⟨S1024x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_23 : BitVec 32 := 0#32
  let v41 : BitVec 1 := Scalar.cmpi .ne v40 c0_i32_23
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  inb_S2048x128_S2048x128_0_0 : ∀ a, (![0, 0] : Fin 2 → Nat) a + S2048x128.size a ≤ S2048x128.size a
  h_S2048x128 : 0 < S2048x128.numel
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S128x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Finite.lean ====
/-
  The precondition read back: every entry of the three argument arrays is a real number.

  The precondition is the conjunction, over q, k and v, of "every entry's absolute value is below +∞". Over the
  extended reals `|x| = max x (-x)` is `+∞` exactly at the two infinities, so an entry satisfying it is a real.
-/
import proofs.«178227_j15178414424540_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic Idealize.ShloMosaic.ValueIdx

namespace Cert.Finite

open Cert.Pre_finite_inputs

instance : Subsingleton S_.Idx := ⟨fun a b => funext fun d => d.elim0⟩

/-- An extended real whose absolute value compares below the pattern of `+∞` is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of q, k and v is a real. -/
theorem real_of_pre [Cert.Pre_finite_inputs.Facts] (Q K V : FVec Ideal S8192x128 .f32)
    (h : Cert.Pre_finite_inputs.fn (F := Ideal) Q K V = fun _ => 1#1) :
    (∀ i, ∃ r : ℝ, Q i = (r : EReal)) ∧ (∀ i, ∃ r : ℝ, K i = (r : EReal)) ∧ (∀ i, ∃ r : ℝ, V i = (r : EReal)) := by
  have h0 := congrFun h ix0
  dsimp only [Cert.Pre_finite_inputs.fn] at h0
  obtain ⟨h01, hv⟩ := IntOp.andi_eq_one.1 h0
  obtain ⟨hq, hk⟩ := IntOp.andi_eq_one.1 h01
  exact ⟨fun i => real_of_abs_lt _ (Host.reduce_andi_all _ _ _ _ _ hq i),
    fun i => real_of_abs_lt _ (Host.reduce_andi_all _ _ _ _ _ hk i),
    fun i => real_of_abs_lt _ (Host.reduce_andi_all _ _ _ _ _ hv i)⟩

end Cert.Finite

end
-- ==== Proof.Pieces.lean ====
/-
  What one grid point of the attention kernel leaves behind, case by case, as values.

  The kernel carries four buffers from one key/value tile to the next: the running row maximum `m` [1024,1], the
  running row total `l` [1024,1], the running numerator `acc` [1024,128] and the scaled query tile `qb` [1024,128].
  At the first key/value tile of a query tile (case A) it resets `m, l, acc` to `-∞, 0, 0`, stores `qb = q · scale`,
  and then makes the same update as everywhere else, reading back what it has just stored. At a middle tile (case B)
  it makes the update over what the tile before left. At the last tile (case C) it makes the update and stores the
  output block `acc / l` of the updated buffers.
  Each lemma reads the stores a case's run ends with back as the body's arithmetic of the values loaded: every store
  covers its buffer whole, so the last one is what the buffer holds, and a load of a buffer stored earlier in the same
  body is that store's value.
-/
import proofs.«178227_j15178414424540_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## Case A: reset, then the update over the reset values -/

theorem sout_A_3 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : cond0_0 i) (hc1 : ¬cond0_1 i)
    (x0 : Vec F S1024x128 .f32) (x1 : Vec F S2048x128 .f32) (x2 : Vec F S2048x128 .f32) :
    sout0_A_3 c i a2 h2 a3 h3 a4 h4 a5 h5 a6 h6 a7 h7 a8 h8 a9 h9 hc0 hc1 x0 x1 x2 = k0_pay7 x0 := by
  unfold sout0_A_3
  rw [View.read_writes_eq_canon _ _ _ (scover0_A_3 c i a2 h2 a3 h3 a4 h4 a5 h5 a6 h6 a7 h7 a8 h8 a9 h9 hc0 hc1 x0 x1 x2)]
  unfold kernelRun0_A
  dsimp only
  sl_unfold_words
  rw [View.canon_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz, View.readCov_unit_zero (S := S1024x1) _ hz, View.readCov_unit_zero (S := S1024x128) _ hz]

theorem sout_A_0 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : cond0_0 i) (hc1 : ¬cond0_1 i)
    (x0 : Vec F S1024x128 .f32) (x1 : Vec F S2048x128 .f32) (x2 : Vec F S2048x128 .f32) :
    sout0_A_0 c i a2 h2 a3 h3 a4 h4 a5 h5 a6 h6 a7 h7 a8 h8 a9 h9 hc0 hc1 x0 x1 x2 = k0_pay2 (k0_pay9 (k0_pay7 x0) x1 k0_pay4) := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  rw [View.canon_cons_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz, View.readCov_unit_zero (S := S1024x1) _ hz, View.readCov_unit_zero (S := S1024x128) _ hz]

theorem sout_A_1 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : cond0_0 i) (hc1 : ¬cond0_1 i)
    (x0 : Vec F S1024x128 .f32) (x1 : Vec F S2048x128 .f32) (x2 : Vec F S2048x128 .f32) :
    sout0_A_1 c i a2 h2 a3 h3 a4 h4 a5 h5 a6 h6 a7 h7 a8 h8 a9 h9 hc0 hc1 x0 x1 x2 = k0_pay12 (k0_pay7 x0) x1 k0_pay4 k0_pay4 k0_pay5 := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  rw [View.canon_cons_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz, View.readCov_unit_zero (S := S1024x1) _ hz, View.readCov_unit_zero (S := S1024x128) _ hz]

theorem sout_A_2 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : cond0_0 i) (hc1 : ¬cond0_1 i)
    (x0 : Vec F S1024x128 .f32) (x1 : Vec F S2048x128 .f32) (x2 : Vec F S2048x128 .f32) :
    sout0_A_2 c i a2 h2 a3 h3 a4 h4 a5 h5 a6 h6 a7 h7 a8 h8 a9 h9 hc0 hc1 x0 x1 x2 = k0_pay1 (k0_pay13 (k0_pay7 x0) x1 k0_pay4 k0_pay4 x2 k0_pay6) := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  rw [View.canon_cons_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz, View.readCov_unit_zero (S := S1024x1) _ hz, View.readCov_unit_zero (S := S1024x128) _ hz]

/-! ## Case B: the update over what the tile before left -/

theorem sout_B_0 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : ¬cond0_0 i) (hc1 : ¬cond0_1 i)
    (x0 : Vec F S1024x128 .f32) (x1 : Vec F S2048x128 .f32) (x2 : Vec F S2048x128 .f32) (xs0 : Vec F S1024x1 .f32) (xs1 : Vec F S1024x1 .f32) (xs2 : Vec F S1024x128 .f32) (xs3 : Vec F S1024x128 .bf16) :
    sout0_B_0 c i a2 h2 a3 h3 a4 h4 a5 h5 a6 h6 a7 h7 a8 h8 a9 h9 hc0 hc1 x0 x1 x2 xs0 xs1 xs2 xs3 = k0_pay2 (k0_pay9 xs3 x1 xs0) := by
  unfold sout0_B_0
  rw [View.read_writes_eq_canon _ _ _ (scover0_B_0 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz]

theorem sout_B_1 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : ¬cond0_0 i) (hc1 : ¬cond0_1 i)
    (x0 : Vec F S1024x128 .f32) (x1 : Vec F S2048x128 .f32) (x2 : Vec F S2048x128 .f32) (xs0 : Vec F S1024x1 .f32) (xs1 : Vec F S1024x1 .f32) (xs2 : Vec F S1024x128 .f32) (xs3 : Vec F S1024x128 .bf16) :
    sout0_B_1 c i a2 h2 a3 h3 a4 h4 a5 h5 a6 h6 a7 h7 a8 h8 a9 h9 hc0 hc1 x0 x1 x2 xs0 xs1 xs2 xs3 = k0_pay12 xs3 x1 xs0 xs0 xs1 := by
  unfold sout0_B_1
  rw [View.read_writes_eq_canon _ _ _ (scover0_B_1 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz]

theorem sout_B_2 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : ¬cond0_0 i) (hc1 : ¬cond0_1 i)
    (x0 : Vec F S1024x128 .f32) (x1 : Vec F S2048x128 .f32) (x2 : Vec F S2048x128 .f32) (xs0 : Vec F S1024x1 .f32) (xs1 : Vec F S1024x1 .f32) (xs2 : Vec F S1024x128 .f32) (xs3 : Vec F S1024x128 .bf16) :
    sout0_B_2 c i a2 h2 a3 h3 a4 h4 a5 h5 a6 h6 a7 h7 a8 h8 a9 h9 hc0 hc1 x0 x1 x2 xs0 xs1 xs2 xs3 = k0_pay1 (k0_pay13 xs3 x1 xs0 xs0 x2 xs2) := by
  unfold sout0_B_2
  rw [View.read_writes_eq_canon _ _ _ (scover0_B_2 c i a2 h2 a3 h3 a4 h4 a5 h5 a6 h6 a7 h7 a8 h8 a9 h9 hc0 hc1 x0 x1 x2 xs0 xs1 xs2 xs3)]
  unfold kernelRun0_B
  dsimp only
  sl_unfold_words
  rw [View.canon_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz]

/-! ## Case C: the same update, and the output block, the quotient of the updated numerator by the updated total -/

theorem sout_C_0 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : ¬cond0_0 i) (hc1 : cond0_1 i)
    (x0 : Vec F S1024x128 .f32) (x1 : Vec F S2048x128 .f32) (x2 : Vec F S2048x128 .f32) (xs0 : Vec F S1024x1 .f32) (xs1 : Vec F S1024x1 .f32) (xs2 : Vec F S1024x128 .f32) (xs3 : Vec F S1024x128 .bf16) :
    sout0_C_0 c i a2 h2 a3 h3 a4 h4 a5 h5 a6 h6 a7 h7 a8 h8 a9 h9 hc0 hc1 x0 x1 x2 xs0 xs1 xs2 xs3 = k0_pay2 (k0_pay9 xs3 x1 xs0) := by
  unfold sout0_C_0
  rw [View.read_writes_eq_canon _ _ _ (scover0_C_0 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz]

theorem sout_C_1 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : ¬cond0_0 i) (hc1 : cond0_1 i)
    (x0 : Vec F S1024x128 .f32) (x1 : Vec F S2048x128 .f32) (x2 : Vec F S2048x128 .f32) (xs0 : Vec F S1024x1 .f32) (xs1 : Vec F S1024x1 .f32) (xs2 : Vec F S1024x128 .f32) (xs3 : Vec F S1024x128 .bf16) :
    sout0_C_1 c i a2 h2 a3 h3 a4 h4 a5 h5 a6 h6 a7 h7 a8 h8 a9 h9 hc0 hc1 x0 x1 x2 xs0 xs1 xs2 xs3 = k0_pay12 xs3 x1 xs0 xs0 xs1 := by
  unfold sout0_C_1
  rw [View.read_writes_eq_canon _ _ _ (scover0_C_1 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz]

theorem sout_C_2 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : ¬cond0_0 i) (hc1 : cond0_1 i)
    (x0 : Vec F S1024x128 .f32) (x1 : Vec F S2048x128 .f32) (x2 : Vec F S2048x128 .f32) (xs0 : Vec F S1024x1 .f32) (xs1 : Vec F S1024x1 .f32) (xs2 : Vec F S1024x128 .f32) (xs3 : Vec F S1024x128 .bf16) :
    sout0_C_2 c i a2 h2 a3 h3 a4 h4 a5 h5 a6 h6 a7 h7 a8 h8 a9 h9 hc0 hc1 x0 x1 x2 xs0 xs1 xs2 xs3 = k0_pay1 (k0_pay13 xs3 x1 xs0 xs0 x2 xs2) := by
  unfold sout0_C_2
  rw [View.read_writes_eq_canon _ _ _ (scover0_C_2 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz]

theorem out_C_3 (c : Dev nD) (i : grid0.Coords) (a2 : Memref sig .tc .vmem S1024x128 .f32) (h2 : a2.IsWhole) (a3 : Memref sig .tc .vmem S2048x128 .f32) (h3 : a3.IsWhole) (a4 : Memref sig .tc .vmem S2048x128 .f32) (h4 : a4.IsWhole) (a5 : Memref sig .tc .vmem S1024x128 .f32) (h5 : a5.IsWhole) (a6 : Memref sig .tc .vmem S1024x1 .f32) (h6 : a6.IsWhole) (a7 : Memref sig .tc .vmem S1024x1 .f32) (h7 : a7.IsWhole) (a8 : Memref sig .tc .vmem S1024x128 .f32) (h8 : a8.IsWhole) (a9 : Memref sig .tc .vmem S1024x128 .bf16) (h9 : a9.IsWhole) (hc0 : ¬cond0_0 i) (hc1 : cond0_1 i)
    (x0 : Vec F S1024x128 .f32) (x1 : Vec F S2048x128 .f32) (x2 : Vec F S2048x128 .f32) (xs0 : Vec F S1024x1 .f32) (xs1 : Vec F S1024x1 .f32) (xs2 : Vec F S1024x128 .f32) (xs3 : Vec F S1024x128 .bf16) :
    out0_C_3 c i a2 h2 a3 h3 a4 h4 a5 h5 a6 h6 a7 h7 a8 h8 a9 h9 hc0 hc1 x0 x1 x2 xs0 xs1 xs2 xs3 = k0_pay3 (k0_pay1 (k0_pay13 xs3 x1 xs0 xs0 x2 xs2)) (k0_pay12 xs3 x1 xs0 xs0 xs1) := by
  unfold out0_C_3
  rw [View.read_writes_eq_canon _ _ _ (cover0_C_3 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz]
  simp only [View.readAt_eq_ld, h2.read_unread, h3.read_unread, h4.read_unread, h6.read_unread, h7.read_unread, h8.read_unread, h9.read_unread, View.ld_unit_zero (S := S2048x128) hz, View.ld_unit_zero (S := S1024x1) hz, View.ld_unit_zero (S := S1024x128) hz, View.readCov_unit_zero (S := S1024x1) _ hz, View.readCov_unit_zero (S := S1024x128) _ hz]

end Cert.KernelIdeal.Pieces

end
-- ==== Proof.Chain.lean ====
/-
  The carried buffers after each grid point, as one recursion over the points.

  Grid point `t` is query tile `t / 4`, key/value tile `t % 4`. `first` is what a point with `t % 4 = 0` leaves in
  `(m, l, acc, qb)`: the update over the reset values `(-∞, 0, 0)` with `qb` the scaled query tile. `next` is what any
  other point leaves over the state `p` of the point before. `state` chains them, restarting at every multiple of 4.
  `scratch_eq`: the frame run's record of the buffers after each point is this chain, by induction on the point.
  `out_eq`: at a point with `t % 4 = 3` the output block is the quotient of that point's numerator by its total.
-/
import proofs.«178227_j15178414424540_2_alg».proof.Proof.Gen.KernelIdeal.Frame
import proofs.«178227_j15178414424540_2_alg».proof.Proof.Pieces
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable {F : FTy → Type} [FloatOps F]

open Cert.KernelIdeal.Pieces

variable (m : (ℓ : Loc nD τ sig) → Buf (Elt F) ℓ)

/-- What a point at the start of a query tile leaves in `(m, l, acc, qb)`. -/
def first (c : Dev nD) (t : Fin cfg0.N) : Vec F S1024x1 .f32 × Vec F S1024x1 .f32 × Vec F S1024x128 .f32 × Vec F S1024x128 .bf16 :=
  (k0_pay2 (k0_pay9 (k0_pay7 (iblk m c 0 t)) (iblk m c 1 t) k0_pay4),
   k0_pay12 (k0_pay7 (iblk m c 0 t)) (iblk m c 1 t) k0_pay4 k0_pay4 k0_pay5,
   k0_pay1 (k0_pay13 (k0_pay7 (iblk m c 0 t)) (iblk m c 1 t) k0_pay4 k0_pay4 (iblk m c 2 t) k0_pay6),
   k0_pay7 (iblk m c 0 t))

/-- What any later point of the query tile leaves, over the state `p` of the point before. -/
def next (c : Dev nD) (t : Fin cfg0.N) (p : Vec F S1024x1 .f32 × Vec F S1024x1 .f32 × Vec F S1024x128 .f32 × Vec F S1024x128 .bf16) : Vec F S1024x1 .f32 × Vec F S1024x1 .f32 × Vec F S1024x128 .f32 × Vec F S1024x128 .bf16 :=
  (k0_pay2 (k0_pay9 p.2.2.2 (iblk m c 1 t) p.1),
   k0_pay12 p.2.2.2 (iblk m c 1 t) p.1 p.1 p.2.1,
   k0_pay1 (k0_pay13 p.2.2.2 (iblk m c 1 t) p.1 p.1 (iblk m c 2 t) p.2.2.1),
   p.2.2.2)

/-- The carried buffers after point `n`. -/
def state (c : Dev nD) : (n : ℕ) → n < cfg0.N → Vec F S1024x1 .f32 × Vec F S1024x1 .f32 × Vec F S1024x128 .f32 × Vec F S1024x128 .bf16
  | 0, h => first m c ⟨0, h⟩
  | n + 1, h => if (n + 1) % 4 = 0 then first m c ⟨n + 1, h⟩ else next m c ⟨n + 1, h⟩ (state c n (Nat.lt_of_succ_lt h))

theorem scratch_eq (c : Dev nD) : ∀ (n : ℕ) (h : n < cfg0.N), (outsAt0 m c n h).2 = state m c n h
  | 0, h => by
    rw [outsAt0_A m c ⟨0, h⟩ rfl (by show ¬(0 % 4 = 3); decide)]
    dsimp only
    rw [sout_A_0, sout_A_1, sout_A_2, sout_A_3]
    rfl
  | n + 1, h => by
    have hN : n + 1 < 32 := lt_of_lt_of_eq h (show cfg0.N = 32 from N_0)
    have ih := scratch_eq c n (Nat.lt_of_succ_lt h)
    by_cases h0 : (n + 1) % 4 = 0
    · have h1 : ¬(n + 1) % 4 = 3 := by omega
      rw [outsAt0_A m c ⟨n + 1, h⟩ h0 h1]
      dsimp only
      rw [sout_A_0, sout_A_1, sout_A_2, sout_A_3, state, if_pos h0]
      rfl
    · by_cases h1 : (n + 1) % 4 = 3
      · simp only [outsAt0, dif_neg h0, dif_pos h1]
        rw [sout_C_0, sout_C_1, sout_C_2, state, if_neg h0]
        unfold sout0_C_3 next
        rw [← ih]
      · simp only [outsAt0, dif_neg h0, dif_neg h1]
        rw [sout_B_0, sout_B_1, sout_B_2, state, if_neg h0]
        unfold sout0_B_3 next
        rw [← ih]

theorem out_eq (c : Dev nD) (t : Fin cfg0.N) (h3 : t.val % 4 = 3) :
    (outsAt0 m c t.val t.isLt).1 = k0_pay3 (state m c t.val t.isLt).2.2.1 (state m c t.val t.isLt).2.1 := by
  obtain ⟨n, h⟩ := t
  cases n with
  | zero => exact absurd h3 (by show ¬(0 % 4 = 3); decide)
  | succ n =>
    have h0 : ¬(n + 1) % 4 = 0 := by dsimp only at h3; omega
    have ih := scratch_eq m c n (Nat.lt_of_succ_lt h)
    dsimp only at h3 ⊢
    simp only [outsAt0, dif_neg h0, dif_pos h3]
    rw [out_C_3, state, if_neg h0]
    unfold next
    rw [← ih]

end Cert.KernelIdeal.Chain

end
-- ==== Proof.Rows.lean ====
/-
  The update of one grid point, read at one row of the query tile.

  At the ideal values a change of float format is the identity, a matrix product into a zero accumulator is a plain sum
  over the contracted axis, a lane reduction is a sum (or a maximum from `-∞`) over the lane axis, and the kept
  column [1024,1] of a row statistic is read at `(r, 0)`. So for row `r` of the query tile, with
  `s j = ∑ d, qb (r, d) · kb (j, d)` the row's scores against the tile's 2048 keys:
      new m (r)      = max (m r) (max over j of s j)
      new l (r)      = e^(m r - new m r) · l r + ∑ j, e^(s j - new m r)
      new acc (r, d) = e^(m r - new m r) · acc (r, d) + ∑ j, e^(s j - new m r) · vb (j, d)
      out (r, d)     = acc (r, d) / l r.
-/
import proofs.«178227_j15178414424540_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.KernelIdeal.Rows

open Cert.KernelIdeal Cert.KernelIdeal.Gen

/-! ## Two layout readings: a vector turned into a column, a column spread along its rows -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products -/

theorem d1_lhs0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl

theorem d1_rhs0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl

theorem d2_lhs0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl

theorem d2_rhs1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

theorem d1_lhs (i : S1024x2048.Idx) (k : Fin 128) :
    dot_S1024x128_S2048x128_S1024x2048_1_1_0_0_n_n.lhsIdx i ((contrEquiv1 dot_S1024x128_S2048x128_S1024x2048_1_1_0_0_n_n 128 rfl rfl).symm k) = ix2 (i 0) k := by
  funext a
  apply Fin.ext
  match a with
  | ⟨0, _⟩ => exact d1_lhs0 _ _
  | ⟨1, _⟩ => exact (dot_S1024x128_S2048x128_S1024x2048_1_1_0_0_n_n.lhsIdx_val_of_single rfl i _).trans (contrEquiv1_symm_val dot_S1024x128_S2048x128_S1024x2048_1_1_0_0_n_n 128 rfl rfl k)

theorem d1_rhs (i : S1024x2048.Idx) (k : Fin 128) :
    dot_S1024x128_S2048x128_S1024x2048_1_1_0_0_n_n.rhsIdx i ((contrEquiv1 dot_S1024x128_S2048x128_S1024x2048_1_1_0_0_n_n 128 rfl rfl).symm k) = ix2 (i 1) k := by
  funext a
  apply Fin.ext
  match a with
  | ⟨0, _⟩ => exact d1_rhs0 _ _
  | ⟨1, _⟩ => exact (dot_S1024x128_S2048x128_S1024x2048_1_1_0_0_n_n.rhsIdx_val_of_single rfl i _).trans (contrEquiv1_symm_val dot_S1024x128_S2048x128_S1024x2048_1_1_0_0_n_n 128 rfl rfl k)

theorem d2_lhs (i : S1024x128.Idx) (k : Fin 2048) :
    dot_S1024x2048_S2048x128_S1024x128_1_0_0_1_n_n.lhsIdx i ((contrEquiv1 dot_S1024x2048_S2048x128_S1024x128_1_0_0_1_n_n 2048 rfl rfl).symm k) = ix2 (i 0) k := by
  funext a
  apply Fin.ext
  match a with
  | ⟨0, _⟩ => exact d2_lhs0 _ _
  | ⟨1, _⟩ => exact (dot_S1024x2048_S2048x128_S1024x128_1_0_0_1_n_n.lhsIdx_val_of_single rfl i _).trans (contrEquiv1_symm_val dot_S1024x2048_S2048x128_S1024x128_1_0_0_1_n_n 2048 rfl rfl k)

theorem d2_rhs (i : S1024x128.Idx) (k : Fin 2048) :
    dot_S1024x2048_S2048x128_S1024x128_1_0_0_1_n_n.rhsIdx i ((contrEquiv1 dot_S1024x2048_S2048x128_S1024x128_1_0_0_1_n_n 2048 rfl rfl).symm k) = ix2 k (i 1) := by
  funext a
  apply Fin.ext
  match a with
  | ⟨1, _⟩ => exact d2_rhs1 _ _
  | ⟨0, _⟩ => exact (dot_S1024x2048_S2048x128_S1024x128_1_0_0_1_n_n.rhsIdx_val_of_single rfl i _).trans (contrEquiv1_symm_val dot_S1024x2048_S2048x128_S1024x128_1_0_0_1_n_n 2048 rfl rfl k)

/-- The scores of the tile: row `r` of the scaled queries against key `j`, summed over the 128 features. -/
theorem scores_apply (qb : Vec Ideal S1024x128 .bf16) (kb : Vec Ideal S2048x128 .f32) (r : Fin 1024) (j : Fin 2048) :
    k0_pay8 (F := Ideal) qb kb (ix2 r j) = ∑ d : Fin 128, (qb (ix2 r d) : EReal) * (kb (ix2 j d) : EReal) := by
  unfold k0_pay8
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  rw [d1_lhs, d1_rhs]
  rfl

/-! ## The lane reductions of a [1024, 2048] block at one row -/

theorem ofBits_neg_inf : Ideal.ofBits .f32 0xFF800000#32 = ⊥ := by simp [Ideal.ofBits, Ideal.ieee]

theorem lift_row (r : Fin 1024) (j : Fin 2048) : reduces_S1024x2048_S1024.lift (ix1 r) j = ix2 r j :=
  funext fun a => Fin.ext (by match a with | ⟨0, _⟩ => rfl | ⟨1, _⟩ => rfl)

/-- A row's maximum over the lane axis, from `-∞`. -/
theorem rowmax_apply (src : FVec Ideal S1024x2048 .f32) (hφ : FKind.Formats .f32)
    (hacc : (0xFF800000#32 : BitVec 32) = FKind.maximumf.neutral .f32 hφ) (r : Fin 1024) (S : Fin 2048 → EReal)
    (hS : ∀ j, src (ix2 r j) = S j) :
    multiReduction .maximumf [1] S1024 src 0xFF800000#32 reduces_S1024x2048_S1024 hφ hacc (ix1 r)
      = (Finset.univ : Finset (Fin 2048)).fold max ⊥ S := by
  refine (Ideal.multiReduction_maximumf_single src 0xFF800000#32 reduces_S1024x2048_S1024 hφ hacc (ix1 r)).trans ?_
  show (Finset.univ : Finset (Fin 2048)).fold max (Ideal.ofBits .f32 0xFF800000#32) (fun j => src (reduces_S1024x2048_S1024.lift (ix1 r) j)) = _
  rw [ofBits_neg_inf]
  exact congrArg (fun f => (Finset.univ : Finset (Fin 2048)).fold max (⊥ : EReal) f)
    (funext fun j => (congrArg src (lift_row r j)).trans (hS j))

/-- A row's sum over the lane axis. -/
theorem rowsum_apply (src : FVec Ideal S1024x2048 .f32) (hφ : FKind.Formats .f32)
    (hacc : (0x00000000#32 : BitVec 32) = FKind.add.neutral .f32 hφ) (r : Fin 1024) (S : Fin 2048 → EReal)
    (hS : ∀ j, src (ix2 r j) = S j) :
    multiReduction .add [1] S1024 src 0x00000000#32 reduces_S1024x2048_S1024 hφ hacc (ix1 r) = ∑ j : Fin 2048, S j := by
  refine (Ideal.multiReduction_add_single src 0x00000000#32 reduces_S1024x2048_S1024 hφ hacc (ix1 r)).trans ?_
  show ∑ j : Fin 2048, src (reduces_S1024x2048_S1024.lift (ix1 r) j) = _
  exact Finset.sum_congr rfl fun j _ => (congrArg src (lift_row r j)).trans (hS j)

/-! ## The update at one row -/

/-- The new running maximum of row `r`. -/
theorem newM_apply (qb : Vec Ideal S1024x128 .bf16) (kb : Vec Ideal S2048x128 .f32) (M : Vec Ideal S1024x1 .f32) (r : Fin 1024)
    (S : Fin 2048 → EReal) (hS : ∀ j, k0_pay8 (F := Ideal) qb kb (ix2 r j) = S j) :
    (k0_pay9 (F := Ideal) qb kb M (ix2 r (0 : Fin 1)) : EReal)
      = max (M (ix2 r (0 : Fin 1)) : EReal) ((Finset.univ : Finset (Fin 2048)).fold max ⊥ S) := by
  unfold k0_pay9
  refine (maximumf_apply _ _ _).trans (congrArg (max _) ?_)
  refine (shapeCast_a_a1_apply _ _ r 0).trans ?_
  exact rowmax_apply _ _ _ r S hS

/-- The rescaling factor of row `r`: `e^(m r - new m r)`. -/
theorem scale_apply (qb : Vec Ideal S1024x128 .bf16) (kb : Vec Ideal S2048x128 .f32) (M : Vec Ideal S1024x1 .f32) (i : S1024x1.Idx) :
    (k0_pay10 (F := Ideal) qb kb M M i : EReal) = Ideal.exp ((M i : EReal) - (k0_pay9 (F := Ideal) qb kb M i : EReal)) := rfl

/-- The weights of row `r`: `e^(s j - new m r)`. -/
theorem weights_apply (qb : Vec Ideal S1024x128 .bf16) (kb : Vec Ideal S2048x128 .f32) (M : Vec Ideal S1024x1 .f32) (r : Fin 1024) (j : Fin 2048) :
    (k0_pay11 (F := Ideal) qb kb M (ix2 r j) : EReal)
      = Ideal.exp ((k0_pay8 (F := Ideal) qb kb (ix2 r j) : EReal) - (k0_pay9 (F := Ideal) qb kb M (ix2 r (0 : Fin 1)) : EReal)) := by
  unfold k0_pay11
  show Ideal.exp (_ - broadcastTo S1024x2048 (k0_pay9 (F := Ideal) qb kb M) broadcasts_S1024x1_S1024x2048 (ix2 r j)) = _
  rw [broadcastTo_a1_ab_apply]

/-- The new running total of row `r`. -/
theorem newL_apply (qb : Vec Ideal S1024x128 .bf16) (kb : Vec Ideal S2048x128 .f32) (M L : Vec Ideal S1024x1 .f32) (r : Fin 1024)
    (S : Fin 2048 → EReal) (hS : ∀ j, k0_pay8 (F := Ideal) qb kb (ix2 r j) = S j) :
    (k0_pay12 (F := Ideal) qb kb M M L (ix2 r (0 : Fin 1)) : EReal)
      = Ideal.exp ((M (ix2 r (0 : Fin 1)) : EReal) - max (M (ix2 r (0 : Fin 1)) : EReal) ((Finset.univ : Finset (Fin 2048)).fold max ⊥ S))
          * (L (ix2 r (0 : Fin 1)) : EReal)
        + ∑ j : Fin 2048, Ideal.exp (S j - max (M (ix2 r (0 : Fin 1)) : EReal) ((Finset.univ : Finset (Fin 2048)).fold max ⊥ S)) := by
  unfold k0_pay12
  refine (congrFun (shapeCast_self _ _) _).trans ?_
  refine (addf_apply _ _ _).trans ?_
  refine congrArg₂ (· + ·) ?_ ?_
  · refine (mulf_apply _ _ _).trans (congrArg (· * _) ?_)
    rw [scale_apply, newM_apply qb kb M r S hS]
  · refine (shapeCast_a_a1_apply _ _ r 0).trans ?_
    refine rowsum_apply _ _ _ r _ fun j => ?_
    rw [weights_apply, hS j, newM_apply qb kb M r S hS]

/-- The new running numerator at row `r`, column `d`. -/
theorem newA_apply (qb : Vec Ideal S1024x128 .bf16) (kb vb : Vec Ideal S2048x128 .f32) (M : Vec Ideal S1024x1 .f32)
    (A : Vec Ideal S1024x128 .f32) (r : Fin 1024) (d : Fin 128)
    (S : Fin 2048 → EReal) (hS : ∀ j, k0_pay8 (F := Ideal) qb kb (ix2 r j) = S j) :
    (k0_pay1 (F := Ideal) (k0_pay13 (F := Ideal) qb kb M M vb A) (ix2 r d) : EReal)
      = Ideal.exp ((M (ix2 r (0 : Fin 1)) : EReal) - max (M (ix2 r (0 : Fin 1)) : EReal) ((Finset.univ : Finset (Fin 2048)).fold max ⊥ S))
          * (A (ix2 r d) : EReal)
        + ∑ j : Fin 2048, Ideal.exp (S j - max (M (ix2 r (0 : Fin 1)) : EReal) ((Finset.univ : Finset (Fin 2048)).fold max ⊥ S))
            * (vb (ix2 j d) : EReal) := by
  unfold k0_pay1 k0_pay13
  refine (congrFun (shapeCast_self _ _) _).trans ?_
  refine (addf_apply _ _ _).trans ?_
  refine congrArg₂ (· + ·) ?_ ?_
  · refine (mulf_apply _ _ _).trans (congrArg (· * _) ?_)
    rw [broadcastTo_a1_ab_apply, scale_apply, newM_apply qb kb M r S hS]
  · simp only [matmul]
    rw [Ideal.matmul_constant_zero_apply, ← Equiv.sum_comp (contrEquiv1 dot_S1024x2048_S2048x128_S1024x128_1_0_0_1_n_n 2048 rfl rfl).symm]
    refine Finset.sum_congr rfl fun j _ => ?_
    rw [d2_lhs, d2_rhs]
    show (k0_pay11 (F := Ideal) qb kb M (ix2 r j) : EReal) * (vb (ix2 j d) : EReal) = _
    rw [weights_apply, hS j, newM_apply qb kb M r S hS]

/-- The output block: numerator over total, row by row. -/
theorem quotient_apply (A : Vec Ideal S1024x128 .f32) (L : Vec Ideal S1024x1 .f32) (r : Fin 1024) (d : Fin 128) :
    (k0_pay3 (F := Ideal) A L (ix2 r d) : EReal) = Ideal.div (A (ix2 r d) : EReal) (L (ix2 r (0 : Fin 1)) : EReal) := by
  unfold k0_pay3
  refine (divf_apply _ _ _).trans ?_
  rw [broadcastTo_a1_ab_apply]

/-- The stored maximum is the new maximum. -/
theorem storedM_eq (x : FVec Ideal S1024x1 .f32) : k0_pay2 (F := Ideal) x = x := by
  unfold k0_pay2
  exact shapeCast_self _ _

/-! ## The reset values and the scaled queries -/

theorem resetM_apply (i : S1024x1.Idx) : (k0_pay4 (F := Ideal) i : EReal) = ⊥ := by
  unfold k0_pay4
  refine (congrFun (shapeCast_self _ _) _).trans ?_
  exact ofBits_neg_inf

theorem resetL_apply (i : S1024x1.Idx) : (k0_pay5 (F := Ideal) i : EReal) = 0 := by
  unfold k0_pay5
  refine (congrFun (shapeCast_self _ _) _).trans ?_
  exact Ideal.ofBits_zero_f32

theorem resetA_apply (i : S1024x128.Idx) : (k0_pay6 (F := Ideal) i : EReal) = 0 := by
  unfold k0_pay6
  refine (congrFun (shapeCast_self _ _) _).trans ?_
  exact Ideal.ofBits_zero_f32

/-- The scaled query tile: each entry times the scale constant. -/
theorem scaledQ_apply (x : Vec Ideal S1024x128 .f32) (i : S1024x128.Idx) :
    (k0_pay7 (F := Ideal) x i : EReal) = (x i : EReal) * Ideal.ofBits .f32 0x3DB504F3#32 := by
  unfold k0_pay7
  refine (congrFun (shapeCast_self _ _) _).trans ?_
  rfl

end Cert.KernelIdeal.Rows

end
-- ==== Proof.SoftmaxLaw.lean ====
/-
  The online form of a softmax-weighted average, on the extended reals.

  Fix one query row and one output column. Its scores against the keys are a sequence of reals `σ J` and the
  values of that column a sequence of reals `ν J`. The plain form of the result is
      (∑ J < n, e^(σ J) · ν J) / (∑ J < n, e^(σ J)),
  and subtracting ANY real `μ` from every score changes neither numerator-over-denominator nor the quotient of each
  weight by the total. The online form consumes the keys block by block, carrying a running maximum `M`, a running
  total `L` and a running numerator `A`; after `a` keys these are `μ`, `∑ J < a, e^(σ J - μ)` and
  `∑ J < a, e^(σ J - μ) · ν J` for the real `μ` the maximum happens to be (`Inv`): rescaling by `e^(μ - μ')`
  moves every weight from `μ` to `μ'`. Before the first block the state is `(-∞, 0, 0)`, and `e^(-∞ - μ') = 0`
  annihilates it. Nothing here uses that `μ` is a maximum, only that it is a real number.
-/
import Idealize.ShloMosaic.PureOps.Ideal
import Mathlib.Analysis.SpecialFunctions.Exp

noncomputable section

namespace Cert.SoftmaxLaw

open Idealize.ShloMosaic Finset

/-- The coercion of reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of reals into the extended reals commutes with `max` (it is monotone). -/
theorem coe_max (x y : ℝ) : ((max x y : ℝ) : EReal) = max (x : EReal) (y : EReal) :=
  EReal.coe_strictMono.monotone.map_max

/-- The maximum, from `-∞`, of finitely many reals over a nonempty index set is a real. -/
theorem fold_max_coe {ι : Type} (s : Finset ι) (hs : s.Nonempty) (f : ι → ℝ) :
    ∃ μ : ℝ, s.fold max (⊥ : EReal) (fun i => (f i : EReal)) = (μ : EReal) := by
  classical
  induction s using Finset.induction_on with
  | empty => exact absurd hs (by simp)
  | insert a s ha ih =>
    rw [Finset.fold_insert ha]
    rcases s.eq_empty_or_nonempty with rfl | hne
    · exact ⟨f a, by simp⟩
    · obtain ⟨μ, hμ⟩ := ih hne
      exact ⟨max (f a) μ, by rw [hμ, coe_max]⟩

/-- The larger of an extended real below `+∞` and a real is a real. -/
theorem max_coe_real (M : EReal) (hM : M ≠ ⊤) (x : ℝ) : ∃ μ : ℝ, max M (x : EReal) = (μ : EReal) := by
  induction M using EReal.rec with
  | bot => exact ⟨x, by simp⟩
  | coe r => exact ⟨max r x, by rw [coe_max]⟩
  | top => exact absurd rfl hM

/-- The plain form: the softmax-weighted average of the first `n` values. -/
def avg (σ ν : ℕ → ℝ) (n : ℕ) : ℝ :=
  (∑ J ∈ range n, Real.exp (σ J) * ν J) / (∑ J ∈ range n, Real.exp (σ J))

/-- The state of the online form after `a` keys. -/
def Inv (σ ν : ℕ → ℝ) (a : ℕ) (M L A : EReal) : Prop :=
  (a = 0 ∧ M = ⊥ ∧ L = 0 ∧ A = 0) ∨
  (∃ μ : ℝ, M = (μ : EReal) ∧ L = ((∑ J ∈ range a, Real.exp (σ J - μ) : ℝ) : EReal)
      ∧ A = ((∑ J ∈ range a, Real.exp (σ J - μ) * ν J : ℝ) : EReal))

theorem inv_init (σ ν : ℕ → ℝ) : Inv σ ν 0 ⊥ 0 0 := Or.inl ⟨rfl, rfl, rfl, rfl⟩

/-- One block of `b` keys: the new maximum is real, and the rescaled total and numerator plus the block's are the
    total and numerator over `a + b` keys at the new maximum. -/
theorem inv_step (σ ν : ℕ → ℝ) (a b : ℕ) (hb : 0 < b) (M L A : EReal) (h : Inv σ ν a M L A) :
    Inv σ ν (a + b)
      (max M ((univ : Finset (Fin b)).fold max (⊥ : EReal) (fun j => ((σ (a + j.val) : ℝ) : EReal))))
      (Ideal.exp (M - max M ((univ : Finset (Fin b)).fold max (⊥ : EReal) (fun j => ((σ (a + j.val) : ℝ) : EReal)))) * L
        + ∑ j : Fin b, Ideal.exp (((σ (a + j.val) : ℝ) : EReal)
            - max M ((univ : Finset (Fin b)).fold max (⊥ : EReal) (fun j => ((σ (a + j.val) : ℝ) : EReal)))))
      (Ideal.exp (M - max M ((univ : Finset (Fin b)).fold max (⊥ : EReal) (fun j => ((σ (a + j.val) : ℝ) : EReal)))) * A
        + ∑ j : Fin b, Ideal.exp (((σ (a + j.val) : ℝ) : EReal)
            - max M ((univ : Finset (Fin b)).fold max (⊥ : EReal) (fun j => ((σ (a + j.val) : ℝ) : EReal))))
          * ((ν (a + j.val) : ℝ) : EReal)) := by
  haveI : Nonempty (Fin b) := ⟨⟨0, hb⟩⟩
  obtain ⟨ρ, hρ⟩ := fold_max_coe (univ : Finset (Fin b)) univ_nonempty (fun j => σ (a + j.val))
  rw [hρ]
  have hblockL : ∀ μ' : ℝ, (∑ j : Fin b, Ideal.exp (((σ (a + j.val) : ℝ) : EReal) - (μ' : EReal)))
      = ((∑ x ∈ range b, Real.exp (σ (a + x) - μ') : ℝ) : EReal) := by
    intro μ'
    rw [← Fin.sum_univ_eq_sum_range (fun x => Real.exp (σ (a + x) - μ')) b, coe_sum]
    exact Finset.sum_congr rfl fun j _ => by rw [← EReal.coe_sub, Ideal.exp_coe]
  have hblockA : ∀ μ' : ℝ, (∑ j : Fin b, Ideal.exp (((σ (a + j.val) : ℝ) : EReal) - (μ' : EReal)) * ((ν (a + j.val) : ℝ) : EReal))
      = ((∑ x ∈ range b, Real.exp (σ (a + x) - μ') * ν (a + x) : ℝ) : EReal) := by
    intro μ'
    rw [← Fin.sum_univ_eq_sum_range (fun x => Real.exp (σ (a + x) - μ') * ν (a + x)) b, coe_sum]
    exact Finset.sum_congr rfl fun j _ => by rw [← EReal.coe_sub, Ideal.exp_coe, ← EReal.coe_mul]
  rcases h with ⟨rfl, rfl, rfl, rfl⟩ | ⟨μ, rfl, rfl, rfl⟩
  · refine Or.inr ⟨ρ, by simp, ?_, ?_⟩
    · rw [show max (⊥ : EReal) (ρ : EReal) = (ρ : EReal) from by simp, hblockL, mul_zero, zero_add, Nat.zero_add]
      simp
    · rw [show max (⊥ : EReal) (ρ : EReal) = (ρ : EReal) from by simp, hblockA, mul_zero, zero_add, Nat.zero_add]
      simp
  · refine Or.inr ⟨max μ ρ, by rw [coe_max], ?_, ?_⟩
    · rw [← coe_max, hblockL, ← EReal.coe_sub, Ideal.exp_coe, ← EReal.coe_mul, ← EReal.coe_add, Finset.sum_range_add,
        Finset.mul_sum]
      congr 2
      exact Finset.sum_congr rfl fun J _ => by rw [← Real.exp_add]; congr 1; ring
    · rw [← coe_max, hblockA, ← EReal.coe_sub, Ideal.exp_coe, ← EReal.coe_mul, ← EReal.coe_add, Finset.sum_range_add,
        Finset.mul_sum]
      congr 2
      exact Finset.sum_congr rfl fun J _ => by rw [← mul_assoc, ← Real.exp_add]; congr 2; ring

theorem sum_exp_pos (σ : ℕ → ℝ) (μ : ℝ) (n : ℕ) (hn : 0 < n) : 0 < ∑ J ∈ range n, Real.exp (σ J - μ) :=
  Finset.sum_pos (fun _ _ => Real.exp_pos _) ⟨0, Finset.mem_range.mpr hn⟩

/-- Shifting every score by one real does not change the average. -/
theorem avg_shift (σ ν : ℕ → ℝ) (μ : ℝ) (n : ℕ) :
    (∑ J ∈ range n, Real.exp (σ J - μ) * ν J) / (∑ J ∈ range n, Real.exp (σ J - μ)) = avg σ ν n := by
  unfold avg
  have h1 : ∀ J, Real.exp (σ J - μ) = Real.exp (-μ) * Real.exp (σ J) := fun J => by rw [← Real.exp_add]; congr 1; ring
  simp only [h1, mul_assoc, ← Finset.mul_sum]
  exact mul_div_mul_left _ _ (Real.exp_pos _).ne'

/-- The online form's quotient after `n > 0` keys is the plain average. -/
theorem inv_final (σ ν : ℕ → ℝ) (n : ℕ) (hn : 0 < n) (M L A : EReal) (h : Inv σ ν n M L A) :
    Ideal.div A L = ((avg σ ν n : ℝ) : EReal) := by
  rcases h with ⟨rfl, -⟩ | ⟨μ, -, rfl, rfl⟩
  · exact absurd hn (lt_irrefl 0)
  · rw [Ideal.div_coe (sum_exp_pos σ μ n hn).ne', ← EReal.coe_mul, mul_one_div, avg_shift σ ν μ n]

/-- The two-pass form: each weight `e^(σ J - μ)` divided by the total, times the value, summed over the `n > 0` keys. -/
theorem two_pass (σ ν : ℕ → ℝ) (n : ℕ) (hn : 0 < n) (μ : ℝ) :
    (∑ J : Fin n, Ideal.div (Ideal.exp (((σ J.val : ℝ) : EReal) - (μ : EReal)))
        (0 + ∑ J' : Fin n, Ideal.exp (((σ J'.val : ℝ) : EReal) - (μ : EReal))) * ((ν J.val : ℝ) : EReal))
      = ((avg σ ν n : ℝ) : EReal) := by
  have hZ : (0 + ∑ J' : Fin n, Ideal.exp (((σ J'.val : ℝ) : EReal) - (μ : EReal)))
      = ((∑ x ∈ range n, Real.exp (σ x - μ) : ℝ) : EReal) := by
    rw [zero_add, ← Fin.sum_univ_eq_sum_range (fun x => Real.exp (σ x - μ)) n, coe_sum]
    exact Finset.sum_congr rfl fun j _ => by rw [← EReal.coe_sub, Ideal.exp_coe]
  have hR : (∑ J ∈ range n, Real.exp (σ J - μ) * ν J) / (∑ J ∈ range n, Real.exp (σ J - μ))
      = ∑ J ∈ range n, Real.exp (σ J - μ) * (1 / ∑ J' ∈ range n, Real.exp (σ J' - μ)) * ν J := by
    rw [div_eq_mul_one_div, Finset.sum_mul]
    exact Finset.sum_congr rfl fun _ _ => by ring
  rw [hZ, ← avg_shift σ ν μ n, hR,
    ← Fin.sum_univ_eq_sum_range (fun x => Real.exp (σ x - μ) * (1 / ∑ J' ∈ range n, Real.exp (σ J' - μ)) * ν x) n]
  refine Eq.trans ?_ (coe_sum _ _).symm
  refine Finset.sum_congr rfl fun J _ => ?_
  rw [Ideal.div_coe (sum_exp_pos σ μ n hn).ne', ← EReal.coe_sub, Ideal.exp_coe, ← EReal.coe_mul, ← EReal.coe_mul]

end Cert.SoftmaxLaw

end
-- ==== Proof.NatArr.lean ====
/-
  A finite [8192, 128] array as a real function of two natural coordinates.

  The kernel reads q, k and v through blocks whose rows sit at an offset (1024 · tile + row, 2048 · tile + key), the
  reference reads them whole. Indexing the arrays by natural numbers (zero outside the array) turns both into the same
  arithmetic on coordinates, with no dependent index types. `score` is the scaled score of query row `R` against key
  `J` as the kernel computes it: the query entry times the scale, times the key entry, summed over the 128 features.
-/
import Idealize.ShloMosaic.Lib.ValueIdx
import Idealize.ShloMosaic.PureOps.Ideal

noncomputable section

open Idealize.ShloMosaic Idealize.ShloMosaic.ValueIdx

namespace Cert.NatArr

/-- The array's entry at natural coordinates `(a, b)` as a real; zero outside the array. -/
def real (X : (⟨2, ![8192, 128]⟩ : Shape).Idx → EReal) (a b : ℕ) : ℝ :=
  if h : a < 8192 ∧ b < 128 then (X (ix2 ⟨a, h.1⟩ ⟨b, h.2⟩)).toReal else 0

/-- An array all of whose entries are reals is its real reading. -/
theorem real_spec (X : (⟨2, ![8192, 128]⟩ : Shape).Idx → EReal) (hX : ∀ i, ∃ x : ℝ, X i = (x : EReal))
    (i : (⟨2, ![8192, 128]⟩ : Shape).Idx) : X i = ((real X (i 0).val (i 1).val : ℝ) : EReal) := by
  obtain ⟨x, hx⟩ := hX i
  unfold real
  rw [dif_pos ⟨(i 0).isLt, (i 1).isLt⟩]
  have e : ix2 (⟨(i 0).val, (i 0).isLt⟩ : Fin 8192) (⟨(i 1).val, (i 1).isLt⟩ : Fin 128) = i := (eq_ix2 i).symm
  rw [e, hx, EReal.toReal_coe]

theorem real_at (X : (⟨2, ![8192, 128]⟩ : Shape).Idx → EReal) (hX : ∀ i, ∃ x : ℝ, X i = (x : EReal))
    (a : Fin 8192) (b : Fin 128) : X (ix2 a b) = ((real X a.val b.val : ℝ) : EReal) :=
  real_spec X hX (ix2 a b)

/-- The scaled score of query row `R` against key `J`. -/
def score (s : ℝ) (Q K : ℕ → ℕ → ℝ) (R J : ℕ) : ℝ := ∑ d ∈ Finset.range 128, Q R d * s * K J d

end Cert.NatArr

end
-- ==== Proof.Spec.lean ====
/-
  The result, as one function of the three argument arrays.

  Entry `(R, d)` of the result is the softmax-weighted average of column `d` of `v` over all 8192 keys, under the
  scaled scores of query row `R`: `(∑ J, e^(s R J) · v (J, d)) / (∑ J, e^(s R J))` with
  `s R J = ∑ f, q (R, f) · scale · k (J, f)`. Both programs compute it: the kernel online, tile by tile, the
  reference in two passes over whole rows. The scale is the real the constant's float pattern denotes; both
  programs carry the same pattern, so its value never matters, only that it is finite.
-/
import proofs.«178227_j15178414424540_2_alg».proof.Proof.SoftmaxLaw
import proofs.«178227_j15178414424540_2_alg».proof.Proof.NatArr

noncomputable section

open Idealize.ShloMosaic Idealize.ShloMosaic.ValueIdx

namespace Cert.Spec

open Cert.SoftmaxLaw Cert.NatArr

/-- The scale constant's pattern is a finite float: it denotes a real. -/
theorem scale_real : ∃ s : ℝ, Ideal.ofBits .f32 0x3DB504F3#32 = (s : EReal) := by
  have h1 : ¬((0x3DB504F3#32 : BitVec 32).extractLsb' 23 8).toNat = 2 ^ 8 - 1 := by decide
  have h2 : ¬((0x3DB504F3#32 : BitVec 32).extractLsb' 23 8).toNat = 0 := by decide
  unfold Ideal.ofBits Ideal.ieee
  dsimp only
  rw [if_neg h1, if_neg h2]
  exact ⟨_, rfl⟩

/-- The real the scale constant denotes. -/
def scale : ℝ := Classical.choose scale_real

theorem scale_spec : Ideal.ofBits .f32 0x3DB504F3#32 = (scale : EReal) := Classical.choose_spec scale_real

/-- Scaled dot-product attention of finite arrays, entry by entry. -/
def attn (Q K V : (⟨2, ![8192, 128]⟩ : Shape).Idx → EReal) : (⟨2, ![8192, 128]⟩ : Shape).Idx → EReal := fun i =>
  ((avg (score scale (real Q) (real K) (i 0).val) (fun J => real V J (i 1).val) 8192 : ℝ) : EReal)

end Cert.Spec

end
-- ==== Proof.Online.lean ====
/-
  One grid point of the attention kernel advances the online softmax by one block of 2048 keys.

  Fix a query row `R` (row `r` of its tile) and an output column `d`. If the scaled query tile holds the reals
  `q (R, ·) · scale`, the key and value blocks hold the reals `k (2048 b + j, ·)` and `v (2048 b + j, d)`, and the
  carried `(m, l, acc)` at `(r, d)` are the online state after `2048 b` keys, then what the point leaves is the
  online state after `2048 (b + 1)` keys (`step_inv`). After all 8192 keys the output entry `acc / l` is the plain
  softmax-weighted average of column `d` of `v` under the scores of row `R` (`out_final`).
-/
import proofs.«178227_j15178414424540_2_alg».proof.Proof.Rows
import proofs.«178227_j15178414424540_2_alg».proof.Proof.Spec

set_option maxRecDepth 16384

noncomputable section

open Idealize.ShloMosaic Idealize.ShloMosaic.TcCoe Idealize.ShloMosaic.ValueIdx

namespace Cert.KernelIdeal.Online

open Cert.KernelIdeal Cert.KernelIdeal.Gen Cert.KernelIdeal.Rows Cert.SoftmaxLaw Cert.NatArr

/-- With real operands, the tile's scores of row `r` are the real scores of row `R` against keys `2048 b + j`. -/
theorem scores_real (Qn Kn : ℕ → ℕ → ℝ) (s : ℝ) (R b : ℕ) (r : Fin 1024)
    (qb : Vec Ideal S1024x128 .bf16) (kb : Vec Ideal S2048x128 .f32)
    (hqb : ∀ d' : Fin 128, (qb (ix2 r d') : EReal) = ((Qn R d'.val * s : ℝ) : EReal))
    (hkb : ∀ (j : Fin 2048) (d' : Fin 128), (kb (ix2 j d') : EReal) = ((Kn (2048 * b + j.val) d'.val : ℝ) : EReal))
    (j : Fin 2048) :
    (k0_pay8 (F := Ideal) qb kb (ix2 r j) : EReal) = ((score s Qn Kn R (2048 * b + j.val) : ℝ) : EReal) := by
  rw [scores_apply]
  unfold score
  rw [← Fin.sum_univ_eq_sum_range (fun d => Qn R d * s * Kn (2048 * b + j.val) d) 128, coe_sum]
  exact Finset.sum_congr rfl fun d' _ => by rw [hqb d', hkb j d', ← EReal.coe_mul]

/-- One point's update takes the online state after `2048 b` keys to the one after `2048 (b + 1)` keys. -/
theorem step_inv (Qn Kn Vn : ℕ → ℕ → ℝ) (s : ℝ) (R b : ℕ) (r : Fin 1024) (d : Fin 128)
    (qb : Vec Ideal S1024x128 .bf16) (kb vb : Vec Ideal S2048x128 .f32) (M L : Vec Ideal S1024x1 .f32) (A : Vec Ideal S1024x128 .f32)
    (hqb : ∀ d' : Fin 128, (qb (ix2 r d') : EReal) = ((Qn R d'.val * s : ℝ) : EReal))
    (hkb : ∀ (j : Fin 2048) (d' : Fin 128), (kb (ix2 j d') : EReal) = ((Kn (2048 * b + j.val) d'.val : ℝ) : EReal))
    (hvb : ∀ j : Fin 2048, (vb (ix2 j d) : EReal) = ((Vn (2048 * b + j.val) d.val : ℝ) : EReal))
    (hinv : Inv (score s Qn Kn R) (fun J => Vn J d.val) (2048 * b)
      (M (ix2 r (0 : Fin 1))) (L (ix2 r (0 : Fin 1))) (A (ix2 r d))) :
    Inv (score s Qn Kn R) (fun J => Vn J d.val) (2048 * (b + 1))
      (k0_pay2 (F := Ideal) (k0_pay9 (F := Ideal) qb kb M) (ix2 r (0 : Fin 1)))
      (k0_pay12 (F := Ideal) qb kb M M L (ix2 r (0 : Fin 1)))
      (k0_pay1 (F := Ideal) (k0_pay13 (F := Ideal) qb kb M M vb A) (ix2 r d)) := by
  have hS : ∀ j : Fin 2048, k0_pay8 (F := Ideal) qb kb (ix2 r j)
      = (fun j : Fin 2048 => ((score s Qn Kn R (2048 * b + j.val) : ℝ) : EReal)) j :=
    fun j => scores_real Qn Kn s R b r qb kb hqb hkb j
  rw [storedM_eq, newM_apply qb kb M r _ hS, newL_apply qb kb M L r _ hS, newA_apply qb kb vb M A r d _ hS]
  simp only [hvb]
  rw [Nat.mul_succ]
  exact inv_step (score s Qn Kn R) (fun J => Vn J d.val) (2048 * b) 2048 (by norm_num) _ _ _ hinv

/-- After all 8192 keys the output entry is the plain average. -/
theorem out_final (σ ν : ℕ → ℝ) (A : Vec Ideal S1024x128 .f32) (L : Vec Ideal S1024x1 .f32) (M : EReal) (r : Fin 1024) (d : Fin 128)
    (hinv : Inv σ ν 8192 M (L (ix2 r (0 : Fin 1))) (A (ix2 r d))) :
    (k0_pay3 (F := Ideal) A L (ix2 r d) : EReal) = ((avg σ ν 8192 : ℝ) : EReal) := by
  rw [quotient_apply]
  exact inv_final σ ν 8192 (by norm_num) M _ _ hinv

end Cert.KernelIdeal.Online

end
-- ==== Proof.KernelValue.lean ====
/-
  The kernel's result array is scaled dot-product attention of its three argument arrays.

  Grid point `t` handles query tile `t / 4` (rows `1024 (t / 4) + r`) and key/value tile `t % 4` (keys
  `2048 (t % 4) + j`): its q, k and v blocks are those rows of the argument arrays (`qblk_apply`, `kblk_apply`,
  `vblk_apply`). Along the points the carried buffers hold, at every row and column, the online softmax state after
  `2048 (t % 4 + 1)` keys, and the scaled query tile holds `q · scale` (`state_inv`, by induction on the point: a
  point with `t % 4 = 0` restarts from the reset values, any other continues from the point before, in the same query
  tile). The output block is written back only at the points with `t % 4 = 3`, where all 8192 keys have been consumed
  and the block is the quotient, that is the plain average (`flushed_eq`); those eight blocks tile the result array
  (`cover`), so the array after the run is `attn q k v` (`final`, `run`).
-/
import proofs.«178227_j15178414424540_2_alg».proof.Proof.Chain
import proofs.«178227_j15178414424540_2_alg».proof.Proof.Online
import proofs.«178227_j15178414424540_2_alg».proof.Proof.Gen.KernelIdeal.Value
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Attn

open Cert.KernelIdeal Cert.KernelIdeal.Gen Cert.KernelIdeal.Chain Cert.KernelIdeal.Rows Cert.KernelIdeal.Online
open Cert.SoftmaxLaw Cert.NatArr Cert.Spec

variable (m : (ℓ : Loc nD τ sig) → Buf (Elt Ideal) ℓ) (ρ : Dev nD → PrngReg)

/-- The three argument arrays as the kernel is launched. -/
abbrev Qa (c : Dev nD) : S8192x128.Idx → EReal := m ((c : Thread nD τ).loc main_arg0)
abbrev Ka (c : Dev nD) : S8192x128.Idx → EReal := m ((c : Thread nD τ).loc main_arg1)
abbrev Va (c : Dev nD) : S8192x128.Idx → EReal := m ((c : Thread nD τ).loc main_arg2)

/-! ## The blocks -/

/-- The windows' block indices over the grid: q and the output move with the query tile, k and v with the key/value tile. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0 :=
  (by decide +kernel : ∀ t : Fin grid0.N, _)

theorem qblk_apply (c : Dev nD) (hQ : (∀ i, ∃ x : ℝ, (Qa m c : S8192x128.Idx → EReal) i = (x : EReal))) (t : Fin cfg0.N) (r : Fin 1024) (d : Fin 128) :
    ((iblk m c 0 t : Vec Ideal S1024x128 .f32) (ix2 r d) : EReal)
      = ((real (Qa m c) (1024 * (t.val / 4) + r.val) d.val : ℝ) : EReal) := by
  unfold iblk
  rw [View.read_apply]
  refine (real_spec (Qa m c) hQ _).trans ?_
  refine congrArg (fun x : ℝ => (x : EReal)) (congrArg₂ (real (Qa m c)) ?_ ?_)
  · show win0_0.index t (0 : Fin 2) * 1024 + 1 * r.val = _
    rw [(idx_facts t).1]; omega
  · show win0_0.index t (1 : Fin 2) * 128 + 1 * d.val = _
    rw [(idx_facts t).2.1]; omega

theorem kblk_apply (c : Dev nD) (hK : (∀ i, ∃ x : ℝ, (Ka m c : S8192x128.Idx → EReal) i = (x : EReal))) (t : Fin cfg0.N) (j : Fin 2048) (d : Fin 128) :
    ((iblk m c 1 t : Vec Ideal S2048x128 .f32) (ix2 j d) : EReal)
      = ((real (Ka m c) (2048 * (t.val % 4) + j.val) d.val : ℝ) : EReal) := by
  unfold iblk
  rw [View.read_apply]
  refine (real_spec (Ka m c) hK _).trans ?_
  refine congrArg (fun x : ℝ => (x : EReal)) (congrArg₂ (real (Ka m c)) ?_ ?_)
  · show win0_1.index t (0 : Fin 2) * 2048 + 1 * j.val = _
    rw [(idx_facts t).2.2.1]; omega
  · show win0_1.index t (1 : Fin 2) * 128 + 1 * d.val = _
    rw [(idx_facts t).2.2.2.1]; omega

theorem vblk_apply (c : Dev nD) (hV : (∀ i, ∃ x : ℝ, (Va m c : S8192x128.Idx → EReal) i = (x : EReal))) (t : Fin cfg0.N) (j : Fin 2048) (d : Fin 128) :
    ((iblk m c 2 t : Vec Ideal S2048x128 .f32) (ix2 j d) : EReal)
      = ((real (Va m c) (2048 * (t.val % 4) + j.val) d.val : ℝ) : EReal) := by
  unfold iblk
  rw [View.read_apply]
  refine (real_spec (Va m c) hV _).trans ?_
  refine congrArg (fun x : ℝ => (x : EReal)) (congrArg₂ (real (Va m c)) ?_ ?_)
  · show win0_2.index t (0 : Fin 2) * 2048 + 1 * j.val = _
    rw [(idx_facts t).2.2.2.2.1]; omega
  · show win0_2.index t (1 : Fin 2) * 128 + 1 * d.val = _
    rw [(idx_facts t).2.2.2.2.2.1]; omega

/-! ## The carried buffers along the points -/

/-- The online state at row `r`, column `d` of query tile `a` after `n` keys, and the scaled query row. -/
def Good (c : Dev nD) (a n : ℕ) (r : Fin 1024) (d : Fin 128)
    (p : Vec Ideal S1024x1 .f32 × Vec Ideal S1024x1 .f32 × Vec Ideal S1024x128 .f32 × Vec Ideal S1024x128 .bf16) : Prop :=
  Inv (score scale (real (Qa m c)) (real (Ka m c)) (1024 * a + r.val)) (fun J => real (Va m c) J d.val) n
      (p.1 (ix2 r (0 : Fin 1))) (p.2.1 (ix2 r (0 : Fin 1))) (p.2.2.1 (ix2 r d))
    ∧ ∀ d' : Fin 128, (p.2.2.2 (ix2 r d') : EReal) = ((real (Qa m c) (1024 * a + r.val) d'.val * scale : ℝ) : EReal)

/-- A point at the start of a query tile: from the reset values to the state after the first 2048 keys. -/
theorem first_good (c : Dev nD) (hQ : (∀ i, ∃ x : ℝ, (Qa m c : S8192x128.Idx → EReal) i = (x : EReal))) (hK : (∀ i, ∃ x : ℝ, (Ka m c : S8192x128.Idx → EReal) i = (x : EReal))) (hV : (∀ i, ∃ x : ℝ, (Va m c : S8192x128.Idx → EReal) i = (x : EReal)))
    (t : Fin cfg0.N) (h0 : t.val % 4 = 0) (r : Fin 1024) (d : Fin 128) :
    Good m c (t.val / 4) (2048 * (t.val % 4 + 1)) r d (first m c t) := by
  have hqb : ∀ d' : Fin 128, (k0_pay7 (F := Ideal) (iblk m c 0 t) (ix2 r d') : EReal)
      = ((real (Qa m c) (1024 * (t.val / 4) + r.val) d'.val * scale : ℝ) : EReal) := fun d' => by
    rw [scaledQ_apply, qblk_apply m c hQ, scale_spec, ← EReal.coe_mul]
  have hinit : Inv (score scale (real (Qa m c)) (real (Ka m c)) (1024 * (t.val / 4) + r.val)) (fun J => real (Va m c) J d.val)
      (2048 * (t.val % 4)) (k0_pay4 (F := Ideal) (ix2 r (0 : Fin 1))) (k0_pay5 (F := Ideal) (ix2 r (0 : Fin 1)))
      (k0_pay6 (F := Ideal) (ix2 r d)) := by
    rw [resetM_apply, resetL_apply, resetA_apply, h0]
    exact inv_init _ _
  have key := step_inv (real (Qa m c)) (real (Ka m c)) (real (Va m c)) scale (1024 * (t.val / 4) + r.val) (t.val % 4) r d
    (k0_pay7 (F := Ideal) (iblk m c 0 t)) (iblk m c 1 t) (iblk m c 2 t) (k0_pay4 (F := Ideal)) (k0_pay5 (F := Ideal))
    (k0_pay6 (F := Ideal)) hqb
    (fun j d' => kblk_apply m c hK t j d') (fun j => vblk_apply m c hV t j d) hinit
  exact ⟨key, hqb⟩

/-- Any later point of a query tile: from the state after `2048 (t % 4)` keys to the state after `2048 (t % 4 + 1)`. -/
theorem next_good (c : Dev nD) (hK : (∀ i, ∃ x : ℝ, (Ka m c : S8192x128.Idx → EReal) i = (x : EReal))) (hV : (∀ i, ∃ x : ℝ, (Va m c : S8192x128.Idx → EReal) i = (x : EReal)))
    (t : Fin cfg0.N) (r : Fin 1024) (d : Fin 128)
    (p : Vec Ideal S1024x1 .f32 × Vec Ideal S1024x1 .f32 × Vec Ideal S1024x128 .f32 × Vec Ideal S1024x128 .bf16)
    (hp : Good m c (t.val / 4) (2048 * (t.val % 4)) r d p) :
    Good m c (t.val / 4) (2048 * (t.val % 4 + 1)) r d (next m c t p) := by
  refine ⟨?_, hp.2⟩
  unfold next
  exact step_inv (real (Qa m c)) (real (Ka m c)) (real (Va m c)) scale (1024 * (t.val / 4) + r.val) (t.val % 4) r d
    p.2.2.2 (iblk m c 1 t) (iblk m c 2 t) p.1 p.2.1 p.2.2.1 hp.2
    (fun j d' => kblk_apply m c hK t j d') (fun j => vblk_apply m c hV t j d) hp.1

/-- After point `n` the carried buffers hold the online state of query tile `n / 4` after `2048 (n % 4 + 1)` keys. -/
theorem state_good (c : Dev nD) (hQ : (∀ i, ∃ x : ℝ, (Qa m c : S8192x128.Idx → EReal) i = (x : EReal))) (hK : (∀ i, ∃ x : ℝ, (Ka m c : S8192x128.Idx → EReal) i = (x : EReal))) (hV : (∀ i, ∃ x : ℝ, (Va m c : S8192x128.Idx → EReal) i = (x : EReal))) :
    ∀ (n : ℕ) (h : n < cfg0.N) (r : Fin 1024) (d : Fin 128), Good m c (n / 4) (2048 * (n % 4 + 1)) r d (state m c n h)
  | 0, h, r, d => first_good m c hQ hK hV ⟨0, h⟩ rfl r d
  | n + 1, h, r, d => by
    rw [state]
    by_cases h0 : (n + 1) % 4 = 0
    · rw [if_pos h0]
      exact first_good m c hQ hK hV ⟨n + 1, h⟩ h0 r d
    · rw [if_neg h0]
      have ih := state_good c hQ hK hV n (Nat.lt_of_succ_lt h) r d
      have e1 : n / 4 = (n + 1) / 4 := by omega
      have e2 : n % 4 + 1 = (n + 1) % 4 := by omega
      rw [e1, e2] at ih
      exact next_good m c hK hV ⟨n + 1, h⟩ r d _ ih

/-! ## What is written back, and the result array -/

/-- At the last key/value tile of a query tile the block written back is that tile's rows of `attn q k v`. -/
theorem flushed_eq (c : Dev nD) (hQ : (∀ i, ∃ x : ℝ, (Qa m c : S8192x128.Idx → EReal) i = (x : EReal))) (hK : (∀ i, ∃ x : ℝ, (Ka m c : S8192x128.Idx → EReal) i = (x : EReal))) (hV : (∀ i, ∃ x : ℝ, (Va m c : S8192x128.Idx → EReal) i = (x : EReal)))
    (t : Fin cfg0.N) (hf : (cfg0.win 3).flush t = true) :
    (dats m 0 c).flushed 3 t = ((cfg0.win 3).blk t).view.read (Elt Ideal) (attn (Qa m c) (Ka m c) (Va m c)) := by
  have h3 : t.val % 4 = 3 := (flush0_3 t).mp hf
  rw [Cert.KernelIdeal.Value.flushed3, Chain.out_eq m c t h3]
  funext y
  obtain ⟨r, d, rfl⟩ : ∃ (r : Fin 1024) (d : Fin 128), y = ix2 r d := ⟨y 0, y 1, eq_ix2 y⟩
  show (k0_pay3 (F := Ideal) (state m c t.val t.isLt).2.2.1 (state m c t.val t.isLt).2.1 (ix2 r d) : EReal)
    = attn (Qa m c) (Ka m c) (Va m c) (((cfg0.win 3).blk t).view.emb (ix2 r d))
  have hinv := (state_good m c hQ hK hV t.val t.isLt r d).1
  rw [h3, show 2048 * (3 + 1) = 8192 from rfl] at hinv
  rw [out_final _ _ _ _ _ r d hinv]
  unfold attn
  have e0 : ((((cfg0.win 3).blk t).view.emb (ix2 r d)) 0).val = 1024 * (t.val / 4) + r.val := by
    show win0_3.index t (0 : Fin 2) * 1024 + 1 * r.val = _
    rw [(idx_facts t).2.2.2.2.2.2.1]; omega
  have e1 : ((((cfg0.win 3).blk t).view.emb (ix2 r d)) 1).val = d.val := by
    show win0_3.index t (1 : Fin 2) * 128 + 1 * d.val = _
    rw [(idx_facts t).2.2.2.2.2.2.2]; omega
  rw [e0, e1]

/-- An index of the result array is in point `t`'s output block iff each coordinate is in the block's range. -/
theorem mem_blk (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0).slice (win0_3.rect t)).set ↔ _
  rw [View.set_slice_whole, Rect.mem_set_unit]
  exact Iff.rfl

/-- Every row of the result belongs to the block written back at the last key/value tile of its query tile. -/
theorem cover (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 32 := N_0
  have hlt : 4 * ((i 0).val / 1024) + 3 < cfg0.N := by rw [hN]; omega
  refine ⟨⟨4 * ((i 0).val / 1024) + 3, hlt⟩, (flush0_3 _).mpr (by show (4 * ((i 0).val / 1024) + 3) % 4 = 3; omega), ?_⟩
  rw [mem_blk]
  have f := idx_facts ⟨4 * ((i 0).val / 1024) + 3, hlt⟩
  have f0 : win0_3.index ⟨4 * ((i 0).val / 1024) + 3, hlt⟩ (0 : Fin 2) = (4 * ((i 0).val / 1024) + 3) / 4 := f.2.2.2.2.2.2.1
  have f1 : win0_3.index ⟨4 * ((i 0).val / 1024) + 3, hlt⟩ (1 : Fin 2) = 0 := f.2.2.2.2.2.2.2
  intro a
  match a with
  | ⟨0, _⟩ =>
    show win0_3.index ⟨4 * ((i 0).val / 1024) + 3, hlt⟩ (0 : Fin 2) * 1024 ≤ (i 0).val ∧ (i 0).val < win0_3.index ⟨4 * ((i 0).val / 1024) + 3, hlt⟩ (0 : Fin 2) * 1024 + 1024
    rw [f0]; omega
  | ⟨1, _⟩ =>
    show win0_3.index ⟨4 * ((i 0).val / 1024) + 3, hlt⟩ (1 : Fin 2) * 128 ≤ (i 1).val ∧ (i 1).val < win0_3.index ⟨4 * ((i 0).val / 1024) + 3, hlt⟩ (1 : Fin 2) * 128 + 128
    rw [f1]; omega

/-- The result array after the run. -/
theorem final (c : Dev nD) (hQ : (∀ i, ∃ x : ℝ, (Qa m c : S8192x128.Idx → EReal) i = (x : EReal))) (hK : (∀ i, ∃ x : ℝ, (Ka m c : S8192x128.Idx → EReal) i = (x : EReal))) (hV : (∀ i, ∃ x : ℝ, (Va m c : S8192x128.Idx → EReal) i = (x : EReal))) :
    (dats m 0 c).arrAt 3 cfg0.N = attn (Qa m c) (Ka m c) (Va m c) :=
  (dats m 0 c).arrAt_eq_of_cover 3 (attn (Qa m c) (Ka m c) (Va m c)) (fun t hf => flushed_eq m c hQ hK hV t hf) cover

/-- The kernel's run, read: the result array is `attn q k v`, the arguments are unchanged. -/
theorem run (hfin : ∀ c : Dev nD, (∀ i, ∃ x : ℝ, (Qa m c : S8192x128.Idx → EReal) i = (x : EReal)) ∧ (∀ i, ∃ x : ℝ, (Ka m c : S8192x128.Idx → EReal) i = (x : EReal)) ∧ (∀ i, ∃ x : ℝ, (Va m c : S8192x128.Idx → EReal) i = (x : EReal))) :
    θ_run defs (onTc (τ := τ) (main (F := Ideal))) ⟨m, fun _ => 0, ρ⟩ fun r => ∀ c : Dev nD,
      r.2.mem ((c : Thread nD τ).loc main_v0) = attn (Qa m c) (Ka m c) (Va m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2.1 (hfin c).2.2), (h c).2⟩)
    (Cert.KernelIdeal.Value.run_blocks m ρ)

end Cert.KernelIdeal.Attn

end
-- ==== Proof.RefValue.lean ====
/-
  The reference's result array is scaled dot-product attention of its three argument arrays.

  The reference computes, for whole rows: the scores `(∑ f, q (R, f) · k (J, f)) · scale`; their row maximum (from
  `-∞`, and once more against `-∞`); the weights `e^(score - max)`; their row total; each weight divided by the total;
  and the product of those quotients with `v`. With finite arguments the scores are the reals `score scale q k R J`
  (the scale moved inside the sum over features: a finite sum of reals), the row maximum is some real `μ`, and the
  two-pass form of the softmax-weighted average (`SoftmaxLaw.two_pass`) is the plain average, whatever `μ` is.
-/
import proofs.«178227_j15178414424540_2_alg».proof.Proof.Gen.ReferenceIdeal.Read
import proofs.«178227_j15178414424540_2_alg».proof.Proof.Spec
import Idealize.ShloMosaic.PureOps.Reduce

set_option maxRecDepth 16384

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.SoftmaxLaw Cert.NatArr Cert.Spec

variable (Q K V : FVec Ideal S8192x128 .f32)

theorem ofBits_neg_inf : Ideal.ofBits .f32 0xFF800000#32 = ⊥ := by simp [Ideal.ofBits, Ideal.ieee]

/-- The scaled scores are the real scores. -/
theorem scores_apply (hQ : ∀ i, ∃ x : ℝ, (Q i : EReal) = (x : EReal)) (hK : ∀ i, ∃ x : ℝ, (K i : EReal) = (x : EReal)) (i : S8192x8192.Idx) :
    (val_main_v3 (F := Ideal) Q K i : EReal) = ((score scale (real Q) (real K) (i 0).val (i 1).val : ℝ) : EReal) := by
  rw [val_main_v3_apply, val_main_v1_apply, val_main_v2_apply, val_main_cst_apply]
  show (∑ k : Fin 128, (Q (lidx_main_v1 i k) : EReal) * (val_main_v0 (F := Ideal) K (ridx_main_v1 i k) : EReal))
    * Ideal.ofBits .f32 0x3DB504F3#32 = _
  rw [scale_spec]
  have h1 : ∀ k : Fin 128, (Q (lidx_main_v1 i k) : EReal) * (val_main_v0 (F := Ideal) K (ridx_main_v1 i k) : EReal)
      = ((real Q (i 0).val k.val * real K (i 1).val k.val : ℝ) : EReal) := fun k => by
    rw [val_main_v0_apply, real_spec Q hQ (lidx_main_v1 i k), real_spec K hK (idx_main_v0 (ridx_main_v1 i k)), ← EReal.coe_mul]
  rw [Finset.sum_congr rfl fun k _ => h1 k, ← coe_sum, ← EReal.coe_mul]
  unfold score
  rw [← Fin.sum_univ_eq_sum_range (fun d => real Q (i 0).val d * scale * real K (i 1).val d) 128, Finset.sum_mul]
  exact congrArg (fun x : ℝ => (x : EReal)) (Finset.sum_congr rfl fun k _ => by ring)

/-- The row maximum the reference subtracts is some real. -/
theorem rowmax_real (hQ : ∀ i, ∃ x : ℝ, (Q i : EReal) = (x : EReal)) (hK : ∀ i, ∃ x : ℝ, (K i : EReal) = (x : EReal)) (R : Fin 8192) :
    ∃ μ : ℝ, (val_main_v6 (F := Ideal) Q K (ix1 R) : EReal) = (μ : EReal) := by
  have hred : S8192x8192.Reduces [1] S8192 := by decide
  have h5 : (val_main_v5 (F := Ideal) (ix1 R) : EReal) = ⊥ := by
    rw [val_main_v5_apply, val_main_cst_1_apply]
    exact ofBits_neg_inf
  have h4 : ∃ μ : ℝ, (val_main_v4 (F := Ideal) Q K (ix1 R) : EReal) = (μ : EReal) := by
    unfold val_main_v4
    rw [Host.reduce_eq_fold_single FloatOps.maximumf _ _ reducesTo_S8192x8192_S8192_d1 hred h_S_]
    show ∃ μ : ℝ, (Finset.univ : Finset (Fin 8192)).fold max (Ideal.ofBits .f32 0xFF800000#32)
      (fun k => (val_main_v3 (F := Ideal) Q K (hred.lift (ix1 R) k) : EReal)) = (μ : EReal)
    rw [ofBits_neg_inf]
    have hf : (fun k : Fin 8192 => (val_main_v3 (F := Ideal) Q K (hred.lift (ix1 R) k) : EReal))
        = fun k => ((score scale (real Q) (real K) R.val k.val : ℝ) : EReal) :=
      funext fun k => (scores_apply Q K hQ hK _).trans rfl
    obtain ⟨μ, hμ⟩ := fold_max_coe (Finset.univ : Finset (Fin 8192)) ⟨(⟨0, by norm_num⟩ : Fin 8192), Finset.mem_univ _⟩
      (fun k => score scale (real Q) (real K) R.val k.val)
    exact ⟨μ, (congrArg (fun f => (Finset.univ : Finset (Fin 8192)).fold max (⊥ : EReal) f) hf).trans hμ⟩
  obtain ⟨μ, hμ⟩ := h4
  refine ⟨μ, ?_⟩
  rw [val_main_v6_apply]
  show max (val_main_v5 (F := Ideal) (ix1 R) : EReal) (val_main_v4 (F := Ideal) Q K (ix1 R) : EReal) = (μ : EReal)
  rw [h5, hμ]
  simp

/-- The weights of row `R`. -/
theorem weights_apply (hQ : ∀ i, ∃ x : ℝ, (Q i : EReal) = (x : EReal)) (hK : ∀ i, ∃ x : ℝ, (K i : EReal) = (x : EReal)) (R : Fin 8192) (μ : ℝ)
    (hμ : (val_main_v6 (F := Ideal) Q K (ix1 R) : EReal) = (μ : EReal)) (k : Fin 8192) :
    (val_main_v10 (F := Ideal) Q K (ix2 R k) : EReal)
      = Ideal.exp (((score scale (real Q) (real K) R.val k.val : ℝ) : EReal) - (μ : EReal)) := by
  have e : idx_main_v7 (idx_main_v8 (ix2 R k)) = ix1 R := funext fun a => Fin.ext (by match a with | ⟨0, _⟩ => rfl)
  rw [val_main_v10_apply, val_main_v9_apply, scores_apply Q K hQ hK, val_main_v8_apply, val_main_v7_apply, e, hμ]
  rfl

/-- The total of row `R`'s weights, from zero. -/
theorem total_apply (hQ : ∀ i, ∃ x : ℝ, (Q i : EReal) = (x : EReal)) (hK : ∀ i, ∃ x : ℝ, (K i : EReal) = (x : EReal)) (R : Fin 8192) (μ : ℝ)
    (hμ : (val_main_v6 (F := Ideal) Q K (ix1 R) : EReal) = (μ : EReal)) (k : Fin 8192) :
    (val_main_v13 (F := Ideal) Q K (ix2 R k) : EReal)
      = 0 + ∑ k' : Fin 8192, Ideal.exp (((score scale (real Q) (real K) R.val k'.val : ℝ) : EReal) - (μ : EReal)) := by
  rw [val_main_v13_apply, val_main_v12_apply, val_main_v11_apply, val_main_cst_2_apply]
  show Ideal.ofBits .f32 0x00000000#32 + _ = _
  rw [Ideal.ofBits_zero_f32]
  refine congrArg (0 + ·) (Finset.sum_congr rfl fun k' _ => ?_)
  have e : idx_main_v11 (idx_main_v12 (idx_main_v13 (ix2 R k))) k' = ix2 R k' :=
    funext fun a => Fin.ext (by match a with | ⟨0, _⟩ => rfl | ⟨1, _⟩ => rfl)
  rw [e, weights_apply Q K hQ hK R μ hμ k']

/-- The reference's result is `attn q k v`. -/
theorem result_eq (hQ : ∀ i, ∃ x : ℝ, (Q i : EReal) = (x : EReal)) (hK : ∀ i, ∃ x : ℝ, (K i : EReal) = (x : EReal)) (hV : ∀ i, ∃ x : ℝ, (V i : EReal) = (x : EReal)) : val_main_v15 (F := Ideal) Q K V = attn Q K V := by
  funext i
  obtain ⟨R, d, rfl⟩ : ∃ (R : Fin 8192) (d : Fin 128), i = ix2 R d := ⟨i 0, i 1, eq_ix2 i⟩
  obtain ⟨μ, hμ⟩ := rowmax_real Q K hQ hK R
  rw [val_main_v15_apply]
  have hterm : ∀ k : Fin 8192,
      (val_main_v14 (F := Ideal) Q K (lidx_main_v15 (ix2 R d) k) : EReal) * (V (ridx_main_v15 (ix2 R d) k) : EReal)
        = Ideal.div (Ideal.exp (((score scale (real Q) (real K) R.val k.val : ℝ) : EReal) - (μ : EReal)))
            (0 + ∑ k' : Fin 8192, Ideal.exp (((score scale (real Q) (real K) R.val k'.val : ℝ) : EReal) - (μ : EReal)))
          * (((fun J => real V J d.val) k.val : ℝ) : EReal) := fun k => by
    have el : lidx_main_v15 (ix2 R d) k = ix2 R k :=
      funext fun a => Fin.ext (by match a with | ⟨0, _⟩ => rfl | ⟨1, _⟩ => rfl)
    rw [el, val_main_v14_apply, weights_apply Q K hQ hK R μ hμ k, total_apply Q K hQ hK R μ hμ k,
      real_spec V hV (ridx_main_v15 (ix2 R d) k)]
    rfl
  rw [Finset.sum_congr rfl fun k _ => hterm k]
  exact two_pass (score scale (real Q) (real K) R.val) (fun J => real V J d.val) 8192 (by norm_num) μ

end Cert.ReferenceIdeal.RefValue

end
-- ==== Proof.lean ====
/-
  A flash-attention kernel against plain softmax attention, over the extended reals.

  The kernel tiles the 8192 queries into 8 tiles of 1024 rows and the 8192 keys into 4 tiles of 2048; for each query
  tile it walks the key/value tiles carrying a running row maximum, a running total of weights and a running
  weighted sum of value rows, rescaling the last two whenever the maximum grows, and divides at the end. The reference
  forms all 8192 × 8192 scores, takes a softmax along each row and multiplies by the values. The kernel multiplies the
  queries by the scale before the score product, the reference multiplies the scores by it afterwards.

  With every input finite both results are, entry by entry, the same real number: the softmax-weighted average
      (∑ J, e^(s R J) · v (J, d)) / (∑ J, e^(s R J)),   s R J = ∑ f, q (R, f) · scale · k (J, f)
  (Proof/Spec.lean). The kernel reaches it through the invariant of the online form (Proof/SoftmaxLaw.lean: after any
  number of keys the carried triple is the maximum-shifted total and numerator over the keys seen, for whatever real
  the running maximum is), read off the frame run point by point (Proof/Pieces.lean, Chain.lean, Rows.lean,
  Online.lean, KernelValue.lean); the reference through the two-pass form of the same average (Proof/RefValue.lean).
  Finiteness (Proof/Finite.lean) is what lets the scale move across the sum over features and the rescaling factor
  distribute over the running sums; neither law holds at the infinities.

  The three frames: the two kernel programs' are their generated frame runs; the reference's is its generated run
  with the result dropped. The idealization rewrote nothing, so `preserves` is `True`.
-/
import proofs.«178227_j15178414424540_2_alg».proof.Defs
import proofs.«178227_j15178414424540_2_alg».proof.Proof.Gen.Kernel
import proofs.«178227_j15178414424540_2_alg».proof.Proof.Gen.Kernel.Skeleton
import proofs.«178227_j15178414424540_2_alg».proof.Proof.Gen.Kernel.Launch
import proofs.«178227_j15178414424540_2_alg».proof.Proof.Gen.Kernel.Points
import proofs.«178227_j15178414424540_2_alg».proof.Proof.Gen.Kernel.Frame
import proofs.«178227_j15178414424540_2_alg».proof.Proof.Gen.KernelIdeal
import proofs.«178227_j15178414424540_2_alg».proof.Proof.Gen.KernelIdeal.Skeleton
import proofs.«178227_j15178414424540_2_alg».proof.Proof.Gen.KernelIdeal.Launch
import proofs.«178227_j15178414424540_2_alg».proof.Proof.Gen.KernelIdeal.Points
import proofs.«178227_j15178414424540_2_alg».proof.Proof.Gen.KernelIdeal.Frame
import proofs.«178227_j15178414424540_2_alg».proof.Proof.Gen.ReferenceIdeal
import proofs.«178227_j15178414424540_2_alg».proof.Proof.Gen.Pre_finite_inputs
import proofs.«178227_j15178414424540_2_alg».proof.Proof.Gen.KernelIdeal.Value
import proofs.«178227_j15178414424540_2_alg».proof.Proof.Gen.ReferenceIdeal.Run
import proofs.«178227_j15178414424540_2_alg».proof.Proof.Gen.ReferenceIdeal.Read
import proofs.«178227_j15178414424540_2_alg».proof.Proof.Finite
import proofs.«178227_j15178414424540_2_alg».proof.Proof.KernelValue
import proofs.«178227_j15178414424540_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on q, k and v, all finite, both programs end with `attn q k v` in their result array. -/
theorem algebraic : Cert.algebraic_KernelIdeal_ReferenceIdeal := by
  intro m ρ m' ρ' hpre hagree
  have hfin := fun c : Dev Cert.KernelIdeal.nD => Cert.Finite.real_of_pre _ _ _ (hpre c)
  refine ⟨fun c => Cert.Spec.attn (Cert.KernelIdeal.Attn.Qa m c) (Cert.KernelIdeal.Attn.Ka m c) (Cert.KernelIdeal.Attn.Va m c),
    Cert.KernelIdeal.Attn.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, (hagree c).1, (hagree c).2.1, (hagree c).2.2]
  exact Cert.ReferenceIdeal.RefValue.result_eq _ _ _ (hfin c).1 (hfin c).2.1 (hfin c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
